-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel

variable [Facts]

def fn {F : FTy → Type} [FloatOps F] (main_arg0 : FVec F S8192x64 .f32) (main_arg1 : FVec F S8192x64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  main_v8
-- ==== Kernel.lean ====
abbrev S8192x64 : Shape := ⟨2, ![8192, 64]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S2048x64 : Shape := ⟨2, ![2048, 64]⟩
abbrev S2048x1 : Shape := ⟨2, ![2048, 1]⟩
abbrev S1x2048 : Shape := ⟨2, ![1, 2048]⟩
abbrev S2048x2048 : Shape := ⟨2, ![2048, 2048]⟩

abbrev nBuf : Space → Nat
  | .hbm => 12
  | .vmem => 10
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x64, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x64, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S1x8192, .f32⟩
  | .hbm, ⟨11, _⟩ => ⟨S8192x8192, .f32⟩
  | .local _ .vmem, ⟨0, _⟩ => ⟨S2048x64, .f32⟩
  | .local _ .vmem, ⟨1, _⟩ => ⟨S2048x64, .f32⟩
  | .local _ .vmem, ⟨2, _⟩ => ⟨S2048x64, .f32⟩
  | .local _ .vmem, ⟨3, _⟩ => ⟨S2048x64, .f32⟩
  | .local _ .vmem, ⟨4, _⟩ => ⟨S2048x1, .f32⟩
  | .local _ .vmem, ⟨5, _⟩ => ⟨S2048x1, .f32⟩
  | .local _ .vmem, ⟨6, _⟩ => ⟨S1x2048, .f32⟩
  | .local _ .vmem, ⟨7, _⟩ => ⟨S1x2048, .f32⟩
  | .local _ .vmem, ⟨8, _⟩ => ⟨S2048x2048, .f32⟩
  | .local _ .vmem, ⟨9, _⟩ => ⟨S2048x2048, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S8192x64_S8192_d1 : S8192x64.ReducesTo [1] S8192
  h_S_ : 0 < S_.numel
  bcast_S8192_S8192x1_0 : S8192.BroadcastsInDim S8192x1 (![0] : Fin 1 → Fin S8192x1.rank)
  transposes_S8192x1_S1x8192_1_0 : S8192x1.Transposes [1, 0] S1x8192
  inb_S2048x64_S2048x64_0_0 : ∀ a, (![0, 0] : Fin 2 → Nat) a + S2048x64.size a ≤ S2048x64.size a
  h_S2048x64 : 0 < S2048x64.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S2048x1_S2048x2048 : S2048x1.Broadcasts S2048x2048
  broadcasts_S1x2048_S2048x2048 : S1x2048.Broadcasts S2048x2048
  inb_S2048x2048_S2048x2048_0_0 : ∀ a, (![0, 0] : Fin 2 → Nat) a + S2048x2048.size a ≤ S2048x2048.size a
  h_S2048x2048 : 0 < S2048x2048.numel
  dot_S2048x64_S2048x64_S2048x2048_1_1_0_0_n_n_wf : DotDims.WF S2048x64 S2048x64 S2048x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S8192x64.size a
  hwx0_0 : ∀ i : grid0.Coords, EltTy.bits .f32 = 32 ∨ (Rect.block (s := S8192x64) S2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S8192x64.size a
  hwx0_1 : ∀ i : grid0.Coords, EltTy.bits .f32 = 32 ∨ (Rect.block (s := S8192x64) S2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S8192x1.size a
  hwx0_2 : ∀ i : grid0.Coords, EltTy.bits .f32 = 32 ∨ (Rect.block (s := S8192x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x8192.size a
  hwx0_3 : ∀ i : grid0.Coords, EltTy.bits .f32 = 32 ∨ (Rect.block (s := S1x8192) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x2048.size a ≤ S8192x8192.size a
  hwx0_4 : ∀ i : grid0.Coords, EltTy.bits .f32 = 32 ∨ (Rect.block (s := S8192x8192) S2048x2048.size (cc0_transform_4 i) (hinb0_4 i)).WholeWords (EltTy.packing .f32)

variable [Facts₀]

def dot_S2048x64_S2048x64_S2048x2048_1_1_0_0_n_n : DotDims S2048x64 S2048x64 S2048x2048 where
  lhsContracting := [1]
  rhsContracting := [1]
  lhsNonContracting := [0]
  rhsNonContracting := [0]
  lhsBatch := []
  rhsBatch := []
  wf := dot_S2048x64_S2048x64_S2048x2048_1_1_0_0_n_n_wf

abbrev win0_0 : Pipeline.Window sig grid0 :=
  Pipeline.Window.ofSpec (Memref.whole main_arg0) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S2048x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x64 : Shape := ⟨2, ![8192, 64]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 25
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x64, .f32⟩
  | .hbm, ⟨3, _⟩ => ⟨S_, .f32⟩
  | .hbm, ⟨4, _⟩ => ⟨S8192, .f32⟩
  | .hbm, ⟨5, _⟩ => ⟨S8192x64, .f32⟩
  | .hbm, ⟨6, _⟩ => ⟨S_, .f32⟩
  | .hbm, ⟨7, _⟩ => ⟨S8192, .f32⟩
  | .hbm, ⟨8, _⟩ => ⟨S8192x8192, .f32⟩
  | .hbm, ⟨9, _⟩ => ⟨S8192x1, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x64_S8192x64_S8192x8192_1_1_0_0_n_n_wf : DotDims.WF S8192x64 S8192x64 S8192x8192 [1] [1] [0] [0] [] []

variable [Facts₀]

def dot_S8192x64_S8192x64_S8192x8192_1_1_0_0_n_n : DotDims S8192x64 S8192x64 S8192x8192 where
  lhsContracting := [1]
  rhsContracting := [1]
  lhsNonContracting := [0]
  rhsNonContracting := [0]
  lhsBatch := []
  rhsBatch := []
  wf := dot_S8192x64_S8192x64_S8192x8192_1_1_0_0_n_n_wf

class Facts : Prop extends Facts₀ where

variable [Facts]
-- ==== Proof.GramSpec.lean ====
/-
  The Gaussian (radial-basis) Gram matrix of two families of 8192 points in 64 coordinates, as ONE function of the two
  arrays, entry by entry, over the extended reals.

  For points x_p and y_q the entry (p, q) is
      exp( (-1) · max( (‖x_p‖² + ‖y_q‖²) − 2 · ⟨x_p, y_q⟩ , 0 ) ),
  the squared distance written through the polarization identity ‖x − y‖² = ‖x‖² + ‖y‖² − 2⟨x, y⟩ and clamped below
  by zero before the exponential. Here ‖x_p‖² is the sum over the 64 coordinates of x_p(k)·x_p(k) started from the zero
  word, ⟨x_p, y_q⟩ the sum of x_p(k)·y_q(k), and the three scalars are kept as the float words that denote −1, 2 and 0:
  both programs spell exactly these words, so none of them is ever evaluated. The expression is kept in the order
  and grouping in which both programs compute it; no law of the extended reals is used, and so no finiteness of the
  inputs either.
-/
import Idealize.ShloMosaic.PureOps.Ideal
import Idealize.ShloMosaic.Lib.ValueIdx

noncomputable section

open scoped BigOperators

namespace Cert.Gram

open Idealize.ShloMosaic Idealize.ShloMosaic.ValueIdx

/-- A family of 8192 points with 64 coordinates each. -/
abbrev Points : Shape := ⟨2, ![8192, 64]⟩
/-- The 8192 × 8192 matrix of pairs of points. -/
abbrev Pairs : Shape := ⟨2, ![8192, 8192]⟩

/-- The squared norm of point `p`: the sum of the squares of its 64 coordinates, started from the zero word. -/
def sqNorm (x : Points.Idx → EReal) (p : Fin 8192) : EReal :=
  Ideal.ofBits .f32 0x00000000#32 + ∑ k : Fin 64, x (ix2 p k) * x (ix2 p k)

/-- The inner product of point `p` of `x` with point `q` of `y`. -/
def inner (x y : Points.Idx → EReal) (p q : Fin 8192) : EReal :=
  ∑ k : Fin 64, x (ix2 p k) * y (ix2 q k)

/-- The Gaussian of a squared norm of `x`'s point, a squared norm of `y`'s point and their inner product:
    `exp (−1 · max ((a + b) − 2 · c) 0)`. -/
def gaussian (a b c : EReal) : EReal :=
  Ideal.exp (Ideal.ofBits .f32 0xBF800000#32 * max (a + b - Ideal.ofBits .f32 0x40000000#32 * c) (Ideal.ofBits .f32 0x00000000#32))

/-- Entry `(p, q)` of the Gram matrix. -/
def entry (x y : Points.Idx → EReal) (p q : Fin 8192) : EReal :=
  gaussian (sqNorm x p) (sqNorm y q) (inner x y p q)

/-- The Gram matrix, as an array indexed by pairs. -/
def gram (x y : Points.Idx → EReal) : Pairs.Idx → EReal := fun i => entry x y (i 0) (i 1)

/-- Read at coordinates. -/
theorem gram_ix2 (x y : Points.Idx → EReal) (p q : Fin 8192) : gram x y (ix2 p q) = entry x y p q := rfl

end Cert.Gram

end
-- ==== Proof.ReferenceGram.lean ====
/-
  The reference program computes the Gram matrix.

  Its last stage, read one operation at a time at the pair (p, q): the exponential of −1 times the maximum with 0 of
  (‖x_p‖² broadcast along the row + ‖y_q‖² broadcast along the column) − 2 · (x · yᵀ)(p, q). The two broadcasts
  (a vector made a column, then repeated; a vector made a row, then repeated) only route the pair's first coordinate to
  the first sum and its second coordinate to the second; the contraction routes p to x's rows and q to y's rows. With the
  indices identified, the expression is the specification's, term for term.
-/
import proofs.«135324_j65481071405061_2_alg».proof.Proof.Gen.ReferenceIdeal.Read
import proofs.«135324_j65481071405061_2_alg».proof.Proof.GramSpec

noncomputable section

open scoped BigOperators

namespace Cert.Gram.Reference

open Cert.ReferenceIdeal Cert.ReferenceIdeal.Gen Cert.ReferenceIdeal.Read
open Idealize.ShloMosaic Idealize.ShloMosaic.ValueIdx Cert.Gram

/-- The contraction reads row `p` of the left operand … -/
theorem lidx_pair (p q : Fin 8192) (k : Fin 64) : lidx_main_v4 (ix2 p q) k = ix2 p k :=
  funext fun a => match a with | ⟨0, _⟩ => rfl | ⟨1, _⟩ => rfl

/-- … and row `q` of the right one. -/
theorem ridx_pair (p q : Fin 8192) (k : Fin 64) : ridx_main_v4 (ix2 p q) k = ix2 q k :=
  funext fun a => match a with | ⟨0, _⟩ => rfl | ⟨1, _⟩ => rfl

/-- Through the column broadcast, the first sum of squares is read at the pair's first coordinate … -/
theorem idx_first (p q : Fin 8192) (k : Fin 64) : idx_main_v1 (idx_main_v5 (idx_main_v7 (ix2 p q))) k = ix2 p k :=
  funext fun a => match a with | ⟨0, _⟩ => rfl | ⟨1, _⟩ => rfl

/-- … and through the row broadcast the second one at its second coordinate. -/
theorem idx_second (p q : Fin 8192) (k : Fin 64) : idx_main_v3 (idx_main_v6 (idx_main_v8 (ix2 p q))) k = ix2 q k :=
  funext fun a => match a with | ⟨0, _⟩ => rfl | ⟨1, _⟩ => rfl

/-- The reference's result array is the Gram matrix of its two arguments. -/
theorem result_eq (x y : (⟨S8192x64, .f32⟩ : BufTy).Contents (Elt Ideal)) :
    val_main_v17 (F := Ideal) x y = gram x y := by
  funext i
  obtain ⟨p, q, rfl⟩ : ∃ (p q : Fin 8192), i = ix2 p q := ⟨i 0, i 1, eq_ix2 i⟩
  rw [val_main_v17_apply, val_main_v16_apply, val_main_v15_apply, val_main_cst_3_apply, val_main_v14_apply,
    val_main_v13_apply, val_main_cst_2_apply, val_main_v12_apply, val_main_v11_apply, val_main_v10_apply,
    val_main_cst_1_apply, val_main_v4_apply, val_main_v9_apply, val_main_v7_apply, val_main_v5_apply, val_main_v1_apply,
    val_main_v8_apply, val_main_v6_apply, val_main_v3_apply, val_main_cst_apply, val_main_cst_0_apply]
  simp only [val_main_v0_apply, val_main_v2_apply, lidx_pair, ridx_pair, idx_first, idx_second,
    Ideal.hostUnary_exp_def, Ideal.mulf_def, Ideal.maximumf_def, Ideal.subf_def, Ideal.addf_def, Ideal.ofBits_def]
  rfl

end Cert.Gram.Reference

end
-- ==== Proof.RowNorms.lean ====
/-
  The squared norms as the kernel's host prelude lays them out.

  Before the tiled computation, the squared norm of every point is taken once: the 64 squares of a row are summed from
  the zero word. For the first family the 8192 sums are then stood up as a column (an 8192 × 1 matrix); for the second
  the column is transposed into a row (a 1 × 8192 matrix). Read at an entry, the column holds at (r, 0) the squared
  norm of point r, and the row holds it at (0, r).
-/
import proofs.«135324_j65481071405061_2_alg».proof.Proof.Gen.KernelIdeal
import proofs.«135324_j65481071405061_2_alg».proof.Proof.GramSpec
import Idealize.ShloMosaic.Lib.Pipeline.Value
import Idealize.ShloMosaic.Lib.ValueLayout
import Idealize.ShloMosaic.PureOps.Ideal.Laws

noncomputable section

open scoped BigOperators

namespace Cert.Gram.Prelude

open Cert.KernelIdeal Cert.KernelIdeal.Facts₀
open Idealize.ShloMosaic Idealize.ShloMosaic.ValueIdx Cert.Gram

/-- The host's sum of the squares of each row, read at row `r`, is the squared norm of point `r`. -/
theorem sumSquares_apply (X : FVec Ideal S8192x64 .f32) (r : Fin 8192) :
    Host.reduceAdd (mulf X X) (constant (F := Ideal) S_ .f32 0x00000000#32) reducesTo_S8192x64_S8192_d1 h_S_ (ix1 r)
      = sqNorm X r := by
  unfold sqNorm
  generalize hY : mulf X X = Y
  simp only [Host.reduceAdd, Ideal.hostReduceAdd_def]
  rw [Ideal.hostReduceAdd_single reducesTo_S8192x64_S8192_d1 (by decide)]
  subst hY
  refine congrArg (_ + ·) (Finset.sum_congr rfl fun k _ => ?_)
  exact congrArg (fun j => X j * X j) (funext fun a => Fin.ext (by match a with | ⟨0, _⟩ => rfl | ⟨1, _⟩ => rfl))

/-- A vector of 8192 entries stood up as a column: entry `(r, 0)` is the vector's entry `r`. -/
theorem column_apply {α : Type} (v : S8192.Idx → α) (r : Fin 8192) :
    broadcastInDim S8192x1 ![0] bcast_S8192_S8192x1_0 v (ix2 r (0 : Fin 1)) = v (ix1 r) :=
  broadcastInDim_apply _ bcast_S8192_S8192x1_0 v (ix2 r (0 : Fin 1)) (ix1 r) (fun a => match a with
    | ⟨0, _⟩ => by show r.val = if (8192 : Nat) = 1 then 0 else r.val; rw [if_neg (by decide)])

/-- The column of squared norms of `X`, read at `(r, 0)`. -/
theorem normColumn_apply (X : FVec Ideal S8192x64 .f32) (r : Fin 8192) :
    broadcastInDim S8192x1 ![0] bcast_S8192_S8192x1_0
        (Host.reduceAdd (mulf X X) (constant (F := Ideal) S_ .f32 0x00000000#32) reducesTo_S8192x64_S8192_d1 h_S_) (ix2 r (0 : Fin 1))
      = sqNorm X r := by
  rw [column_apply, sumSquares_apply]

/-- The row of squared norms of `Y` (the column, transposed), read at `(0, r)`. -/
theorem normRow_apply (Y : FVec Ideal S8192x64 .f32) (r : Fin 8192) :
    transpose S1x8192 [1, 0] (broadcastInDim S8192x1 ![0] bcast_S8192_S8192x1_0
        (Host.reduceAdd (mulf Y Y) (constant (F := Ideal) S_ .f32 0x00000000#32) reducesTo_S8192x64_S8192_d1 h_S_))
        transposes_S8192x1_S1x8192_1_0 (ix2 (0 : Fin 1) r)
      = sqNorm Y r := by
  rw [transpose_ix2_apply, normColumn_apply]

end Cert.Gram.Prelude

end
-- ==== Proof.LibColumnBroadcast.lean ====
/-
  One column broadcast over many.

  An [a, 1] matrix broadcast to [a, b] repeats its one column: entry (p, c) of the result is entry (p, 0) of the
  operand, whatever the column c. (The companion form for one ROW, [1, b] → [a, b], is the library's
  `broadcastTo_1b_ab_apply`.)
-/
import Idealize.ShloMosaic.Lib.ValueLayout

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibMatmulRowsByRows.lean ====
/-
  A matrix product "rows by rows", read at an entry.

  The product of an [m, k] matrix A with an [n, k] matrix B that contracts the SECOND axis of both (A · Bᵀ), accumulated
  into the zero matrix, has at entry (a, b) the sum over the k contracted positions c of A(a, c) · B(b, c). At the
  ideal values the product is the exact sum, so nothing of a chunking or an order of accumulation is left in it.
-/
import Idealize.ShloMosaic.PureOps.Ideal.Laws
import Idealize.ShloMosaic.Lib.ValueIdx

noncomputable section

namespace Idealize.ShloMosaic.ValueIdx

open Idealize.ShloMosaic

/-- A `tpu.matmul` of `[m, k]` by `[n, k]`, both contracting axis 1, into the zero accumulator: entry `(a, b)` is
    `∑ c, A (a, c) * B (b, c)`. `w` is the dimension record's well-formedness, which a program states. -/
theorem matmul_rows_rows_apply {m k n : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    FloatOps.matmul (⟨[1], [1], [0], [0], [], [], w⟩ : DotDims ⟨2, ![m, k]⟩ ⟨2, ![n, k]⟩ ⟨2, ![m, n]⟩) prec A B
        (constant ⟨2, ![m, n]⟩ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims ⟨2, ![m, k]⟩ ⟨2, ![n, k]⟩ ⟨2, ![m, n]⟩) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Idealize.ShloMosaic.ValueIdx

end
-- ==== Proof.BodyEntry.lean ====
/-
  One tile of the kernel, read at an entry.

  A grid point holds 2048 points of each family (two 2048 × 64 blocks), the 2048 squared norms of the first as a
  column and the 2048 squared norms of the second as a row, and produces a 2048 × 2048 tile. Entry (p, q) of the tile:
  the column is repeated along the row and the row along the column, so their sum at (p, q) is column(p) + row(q); the
  matrix product of the first block with the transpose of the second, accumulated from zero, is at (p, q) the sum over
  the 64 coordinates of the products; and the rest is pointwise. That is the Gaussian of the two squared norms and the
  inner product of the tile's p-th and q-th points.
-/
import proofs.«135324_j65481071405061_2_alg».proof.Proof.Gen.KernelIdeal.Skeleton
import proofs.«135324_j65481071405061_2_alg».proof.Proof.GramSpec
import proofs.«135324_j65481071405061_2_alg».proof.Proof.LibColumnBroadcast
import proofs.«135324_j65481071405061_2_alg».proof.Proof.LibMatmulRowsByRows
import Idealize.ShloMosaic.Lib.Pipeline.Value
import Idealize.ShloMosaic.Lib.ValueLayout

noncomputable section

open scoped BigOperators

namespace Cert.Gram.Body

open Cert.KernelIdeal Cert.KernelIdeal.Gen
open Idealize.ShloMosaic Idealize.ShloMosaic.ValueIdx Cert.Gram

/-- The product of a 2048 × 64 block with the transpose of another, from the zero accumulator, at `(p, q)`: the sum over
    the 64 coordinates of the products of the two rows' entries. -/
theorem cross_apply (x0 x1 : FVec Ideal S2048x64 .f32) (p q : Fin 2048) :
    matmul dot_S2048x64_S2048x64_S2048x2048_1_1_0_0_n_n none x0 x1 (constant (F := Ideal) S2048x2048 .f32 0x00000000#32) (ix2 p q)
      = ∑ c : Fin 64, x0 (ix2 p c) * x1 (ix2 q c) :=
  matmul_rows_rows_apply Facts₀.dot_S2048x64_S2048x64_S2048x2048_1_1_0_0_n_n_wf none x0 x1 p q

/-- Entry `(p, q)` of the tile a grid point stores: the Gaussian of the column's entry `p`, the row's entry `q` and the
    inner product of row `p` of the first block with row `q` of the second. -/
theorem tile_entry (x0 x1 : Vec Ideal S2048x64 .f32) (x2 : Vec Ideal S2048x1 .f32) (x3 : Vec Ideal S1x2048 .f32) (p q : Fin 2048) :
    k0_pay1 (F := Ideal) x0 x1 x2 x3 (ix2 p q)
      = gaussian (x2 (ix2 p (0 : Fin 1))) (x3 (ix2 (0 : Fin 1) q)) (∑ c : Fin 64, x0 (ix2 p c) * x1 (ix2 q c)) := by
  unfold k0_pay1 gaussian
  show Ideal.exp (Ideal.ofBits .f32 0xBF800000#32 * max
      (broadcastTo S2048x2048 (shapeCast S2048x1 x2 _) _ (ix2 p q)
        + broadcastTo S2048x2048 (shapeCast S1x2048 x3 _) _ (ix2 p q)
        - Ideal.ofBits .f32 0x40000000#32
          * matmul dot_S2048x64_S2048x64_S2048x2048_1_1_0_0_n_n none x0 x1 (constant (F := Ideal) S2048x2048 .f32 0x00000000#32) (ix2 p q))
      (Ideal.ofBits .f32 0x00000000#32)) = _
  rw [shapeCast_self, shapeCast_self, broadcastTo_a1_ab_apply, broadcastTo_1b_ab_apply, cross_apply]

end Cert.Gram.Body

end
-- ==== Proof.KernelGram.lean ====
/-
  The tiled kernel computes the Gram matrix.

  The 8192 × 8192 result is cut into a 4 × 4 grid of 2048 × 2048 tiles. The grid point with block coordinates (a, b)
  is handed rows a·2048 … of the first family, rows b·2048 … of the second, the matching stretch of the column of
  squared norms of the first family and of the row of squared norms of the second, and writes tile (a, b). An entry
  (p, q) of that tile depends only on point a·2048 + p of the first family and point b·2048 + q of the second, and is
  the Gaussian of their squared norms and inner product: it is entry (a·2048 + p, b·2048 + q) of the Gram matrix. Every
  entry of the result lies in exactly the tile of its two quotients by 2048, so after the last grid point the array is
  the Gram matrix.
-/
import proofs.«135324_j65481071405061_2_alg».proof.Proof.Gen.KernelIdeal.Value
import proofs.«135324_j65481071405061_2_alg».proof.Proof.GramSpec
import proofs.«135324_j65481071405061_2_alg».proof.Proof.RowNorms
import proofs.«135324_j65481071405061_2_alg».proof.Proof.BodyEntry
import Idealize.ShloMosaic.Lib.Pipeline.Value
import Idealize.ShloMosaic.Lib.StableHlo.Run

set_option maxRecDepth 16384

noncomputable section

open scoped BigOperators

namespace Cert.Gram.Kernel

open Cert.KernelIdeal Cert.KernelIdeal.Gen Idealize.ShloMosaic Idealize.ShloMosaic.TcCoe Idealize.SL.Sem
open Idealize.ShloMosaic.StableHlo
open Idealize.ShloMosaic.Pipeline (Dat)
open Idealize.ShloMosaic.ValueIdx Cert.Gram

variable (m : (ℓ : Loc nD τ sig) → Buf (Elt Ideal) ℓ) (ρ : Dev nD → PrngReg)

/-- The first family of points, as launched on core `c`. -/
abbrev xs (c : Dev nD) : FVec Ideal S8192x64 .f32 := m ((c : Thread nD τ).loc main_arg0)
/-- The second family of points, as launched on core `c`. -/
abbrev ys (c : Dev nD) : FVec Ideal S8192x64 .f32 := m ((c : Thread nD τ).loc main_arg1)

/-! ## One tile entry from the four blocks -/

/-- If the four blocks handed to a grid point are, at the places entry `j` of the tile reads them, the rows `r` of `X`
    and `s` of `Y` and their squared norms, then entry `j` of the stored tile is entry `(r, s)` of the Gram matrix. -/
theorem tile_at (X Y : FVec Ideal S8192x64 .f32)
    (x0 x1 : Vec Ideal S2048x64 .f32) (x2 : Vec Ideal S2048x1 .f32) (x3 : Vec Ideal S1x2048 .f32)
    (j : S2048x2048.Idx) (r s : Fin 8192)
    (h0 : ∀ k : Fin 64, x0 (ix2 (j 0) k) = X (ix2 r k))
    (h1 : ∀ k : Fin 64, x1 (ix2 (j 1) k) = Y (ix2 s k))
    (h2 : x2 (ix2 (j 0) (0 : Fin 1)) = sqNorm X r)
    (h3 : x3 (ix2 (0 : Fin 1) (j 1)) = sqNorm Y s) :
    k0_pay1 (F := Ideal) x0 x1 x2 x3 j = gram X Y (ix2 r s) := by
  have hs : (∑ k : Fin 64, x0 (ix2 (j 0) k) * x1 (ix2 (j 1) k)) = inner X Y r s :=
    Finset.sum_congr rfl fun k _ => by rw [h0 k, h1 k]
  refine ((congrArg (k0_pay1 (F := Ideal) x0 x1 x2 x3) (eq_ix2 j)).trans (Body.tile_entry x0 x1 x2 x3 (j 0) (j 1))).trans ?_
  rw [h2, h3, hs]
  rfl

/-! ## What the region finds in the two arrays of squared norms -/

/-- The column array holds the squared norms of the first family, stood up as a column. -/
theorem V_normColumn (c : Dev nD) : (V m c main_v2 : S8192x1.Idx → EReal)
    = broadcastInDim S8192x1 ![0] Facts₀.bcast_S8192_S8192x1_0
        (Host.reduceAdd (mulf (xs m c) (xs m c)) (constant (F := Ideal) S_ .f32 0x00000000#32) Facts₀.reducesTo_S8192x64_S8192_d1 Facts₀.h_S_) := by
  dsimp only [Gen.V, Gen.hostOps0]; after_results

/-- The row array holds the squared norms of the second family, as a column transposed into a row. -/
theorem V_normRow (c : Dev nD) : (V m c main_v6 : S1x8192.Idx → EReal)
    = transpose S1x8192 [1, 0] (broadcastInDim S8192x1 ![0] Facts₀.bcast_S8192_S8192x1_0
        (Host.reduceAdd (mulf (ys m c) (ys m c)) (constant (F := Ideal) S_ .f32 0x00000000#32) Facts₀.reducesTo_S8192x64_S8192_d1 Facts₀.h_S_))
        Facts₀.transposes_S8192x1_S1x8192_1_0 := by
  dsimp only [Gen.V, Gen.hostOps0]; after_results

/-! ## The grid -/

theorem zero_offsets : (![0, 0] : Fin 2 → Nat) = fun _ => 0 := funext fun a => by fin_cases a <;> rfl

/-- Over the 16 grid points: the first family's block and the column of norms move with the tile's row of blocks, the
    second family's block and the row of norms with its column of blocks, and nothing moves along the short axes. -/
theorem index_facts : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = win0_4.index t (1 : Fin 2)
    ∧ win0_4.index t (0 : Fin 2) ≤ 3 ∧ win0_4.index t (1 : Fin 2) ≤ 3 :=
  (by decide +kernel : ∀ t : Fin grid0.N, _)

/-- Every one of the 4 × 4 tiles is some grid point's. -/
theorem index_onto : ∀ (q0 q1 : Fin 4), ∃ t : Fin cfg0.N, win0_4.index t = ![q0.val, q1.val] :=
  (by decide +kernel : ∀ (q0 q1 : Fin 4), ∃ t : Fin grid0.N, win0_4.index t = ![q0.val, q1.val])

/-! ## What a grid point writes back -/

/-- Grid point `t` writes back tile `t` of the Gram matrix of the two families as launched. -/
theorem flushed_eq (c : Dev nD) (t : Fin cfg0.N) :
    (dats m 0 c).flushed 4 t = ((cfg0.win 4).blk t).view.read (Elt Ideal) (gram (xs m c) (ys m c)) := by
  rw [Value.flushed4]
  unfold out0_4
  rw [View.canon_unit_zero zero_offsets]
  simp only [View.ld_unit_zero (S := S2048x64) zero_offsets, View.ld_unit_zero (S := S2048x1) zero_offsets,
    View.ld_unit_zero (S := S1x2048) zero_offsets]
  obtain ⟨e00, e01, e10, e11, e20, e21, e30, e31, b0, b1⟩ := index_facts t
  funext j
  have hj0 : (j 0).val < 2048 := (j 0).isLt
  have hj1 : (j 1).val < 2048 := (j 1).isLt
  obtain ⟨r, hr⟩ : ∃ r : Fin 8192, r.val = win0_4.index t (0 : Fin 2) * 2048 + (j 0).val := ⟨⟨_, by omega⟩, rfl⟩
  obtain ⟨s, hs⟩ : ∃ s : Fin 8192, s.val = win0_4.index t (1 : Fin 2) * 2048 + (j 1).val := ⟨⟨_, by omega⟩, rfl⟩
  have hemb : ((cfg0.win 4).blk t).view.emb j = ix2 r s := funext fun a => Fin.ext (by
    match a with
    | ⟨0, _⟩ => show win0_4.index t (0 : Fin 2) * 2048 + 1 * (j 0).val = r.val; omega
    | ⟨1, _⟩ => show win0_4.index t (1 : Fin 2) * 2048 + 1 * (j 1).val = s.val; omega)
  show k0_pay1 (iblk m c 0 t) (iblk m c 1 t) (iblk m c 2 t) (iblk m c 3 t) j
    = gram (xs m c) (ys m c) (((cfg0.win 4).blk t).view.emb j)
  rw [hemb]
  refine tile_at (xs m c) (ys m c) (iblk m c 0 t) (iblk m c 1 t) (iblk m c 2 t) (iblk m c 3 t) j r s ?_ ?_ ?_ ?_
  · intro k
    show V m c main_arg0 (((cfg0.win 0).blk t).view.emb (ix2 (j 0) k)) = _
    rw [V_main_arg0]
    refine congrArg (xs m c) (funext fun a => Fin.ext ?_)
    match a with
    | ⟨0, _⟩ => show win0_0.index t (0 : Fin 2) * 2048 + 1 * (j 0).val = r.val; omega
    | ⟨1, _⟩ => show win0_0.index t (1 : Fin 2) * 64 + 1 * k.val = k.val; omega
  · intro k
    show V m c main_arg1 (((cfg0.win 1).blk t).view.emb (ix2 (j 1) k)) = _
    rw [V_main_arg1]
    refine congrArg (ys m c) (funext fun a => Fin.ext ?_)
    match a with
    | ⟨0, _⟩ => show win0_1.index t (0 : Fin 2) * 2048 + 1 * (j 1).val = s.val; omega
    | ⟨1, _⟩ => show win0_1.index t (1 : Fin 2) * 64 + 1 * k.val = k.val; omega
  · show V m c main_v2 (((cfg0.win 2).blk t).view.emb (ix2 (j 0) (0 : Fin 1))) = _
    have e : ((cfg0.win 2).blk t).view.emb (ix2 (j 0) (0 : Fin 1)) = ix2 r (0 : Fin 1) :=
      funext fun a => Fin.ext (by
        match a with
        | ⟨0, _⟩ => show win0_2.index t (0 : Fin 2) * 2048 + 1 * (j 0).val = r.val; omega
        | ⟨1, _⟩ => show win0_2.index t (1 : Fin 2) * 1 + 1 * 0 = 0; omega)
    rw [e, V_normColumn, Prelude.normColumn_apply]
  · show V m c main_v6 (((cfg0.win 3).blk t).view.emb (ix2 (0 : Fin 1) (j 1))) = _
    have e : ((cfg0.win 3).blk t).view.emb (ix2 (0 : Fin 1) (j 1)) = ix2 (0 : Fin 1) s :=
      funext fun a => Fin.ext (by
        match a with
        | ⟨0, _⟩ => show win0_3.index t (0 : Fin 2) * 1 + 1 * 0 = 0; omega
        | ⟨1, _⟩ => show win0_3.index t (1 : Fin 2) * 2048 + 1 * (j 1).val = s.val; omega)
    rw [e, V_normRow, Prelude.normRow_apply]

/-! ## The tiles fill the array -/

/-- An entry of the result is in grid point `t`'s tile iff each coordinate is in the tile's range on its axis. -/
theorem mem_tile (t : Fin cfg0.N) (i : S8192x8192.Idx) :
    i ∈ ((cfg0.win 4).blk t).view.set ↔ ∀ a : Fin 2, win0_4.index t a * S2048x2048.size a ≤ (i a).val
      ∧ (i a).val < win0_4.index t a * S2048x2048.size a + S2048x2048.size a := by
  show i ∈ ((View.whole main_v7).slice (win0_4.rect t)).set ↔ _
  rw [View.set_slice_whole, Rect.mem_set_unit]
  exact Iff.rfl

/-- Every entry of the result is in the tile of its two quotients by 2048, which some grid point writes back. -/
theorem covered (i : S8192x8192.Idx) :
    ∃ t : Fin cfg0.N, (cfg0.win 4).flush t = true ∧ i ∈ ((cfg0.win 4).blk t).view.set := by
  have hi0 : (i 0).val < 8192 := (i 0).isLt
  have hi1 : (i 1).val < 8192 := (i 1).isLt
  obtain ⟨t, ht⟩ := index_onto ⟨(i 0).val / 2048, by omega⟩ ⟨(i 1).val / 2048, by omega⟩
  have q0 : win0_4.index t (0 : Fin 2) = (i 0).val / 2048 := congrFun ht 0
  have q1 : win0_4.index t (1 : Fin 2) = (i 1).val / 2048 := congrFun ht 1
  refine ⟨t, flush0_4 t, ?_⟩
  rw [mem_tile]
  intro a
  match a with
  | ⟨0, _⟩ => show win0_4.index t (0 : Fin 2) * 2048 ≤ (i 0).val ∧ (i 0).val < win0_4.index t (0 : Fin 2) * 2048 + 2048; omega
  | ⟨1, _⟩ => show win0_4.index t (1 : Fin 2) * 2048 ≤ (i 1).val ∧ (i 1).val < win0_4.index t (1 : Fin 2) * 2048 + 2048; omega

/-- After the last grid point the result array is the Gram matrix of the two families as launched. -/
theorem final (c : Dev nD) : (dats m 0 c).arrAt 4 cfg0.N = gram (xs m c) (ys m c) :=
  (dats m 0 c).arrAt_eq_of_cover 4 (gram (xs m c) (ys m c)) (fun t _ => flushed_eq m c t) covered

/-! ## The run -/

/-- Every weakly fair execution of the kernel's program terminates with the result array at the Gram matrix of the two
    argument arrays, and the arguments unchanged. -/
theorem run : θ_run defs (onTc (τ := τ) (main (F := Ideal))) ⟨m, fun _ => 0, ρ⟩ fun r => ∀ c : Dev nD,
      r.2.mem ((c : Thread nD τ).loc main_v7) = gram (xs m c) (ys m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.Gram.Kernel

end
-- ==== Proof.lean ====
/-
  A Gaussian Gram matrix computed in tiles equals the one computed whole.

  Both programs take two families of 8192 points in 64 coordinates and produce the 8192 × 8192 matrix whose entry
  (p, q) is exp(−max(‖x_p‖² + ‖y_q‖² − 2⟨x_p, y_q⟩, 0)): the squared distance written through the polarization identity,
  clamped below by zero, negated, exponentiated. The kernel first takes all squared norms once (a column for the first
  family, a row for the second) and then fills the result tile by tile, 2048 × 2048 entries at a time, each tile from
  2048 points of each family, their norms, and one matrix product of the two blocks. The reference computes the same
  expression over the whole arrays with one 8192 × 8192 product.

  Over the extended reals both are the SAME expression, with the same three constants (−1, 2, 0 as float words) and
  the same grouping; they differ only in how the norms are laid out before being added (column/row blocks repeated
  across a tile, against whole-array broadcasts) and in the tiling. So the bridge is index bookkeeping: entry (p, q) of
  tile (a, b) reads point a·2048 + p and point b·2048 + q, and the tiles fill the matrix. No algebraic law of the
  extended reals is needed and the finiteness of the inputs is not used. The idealization rewrote nothing, so that
  conjunct is trivial; the frames are the generated ones, the reference's being its run with the result dropped.
-/
import proofs.«135324_j65481071405061_2_alg».proof.Defs
import proofs.«135324_j65481071405061_2_alg».proof.Proof.Gen.Kernel
import proofs.«135324_j65481071405061_2_alg».proof.Proof.Gen.Kernel.Skeleton
import proofs.«135324_j65481071405061_2_alg».proof.Proof.Gen.Kernel.Launch
import proofs.«135324_j65481071405061_2_alg».proof.Proof.Gen.Kernel.Points
import proofs.«135324_j65481071405061_2_alg».proof.Proof.Gen.Kernel.Frame
import proofs.«135324_j65481071405061_2_alg».proof.Proof.Gen.KernelIdeal
import proofs.«135324_j65481071405061_2_alg».proof.Proof.Gen.KernelIdeal.Skeleton
import proofs.«135324_j65481071405061_2_alg».proof.Proof.Gen.KernelIdeal.Launch
import proofs.«135324_j65481071405061_2_alg».proof.Proof.Gen.KernelIdeal.Points
import proofs.«135324_j65481071405061_2_alg».proof.Proof.Gen.KernelIdeal.Frame
import proofs.«135324_j65481071405061_2_alg».proof.Proof.Gen.KernelIdeal.Value
import proofs.«135324_j65481071405061_2_alg».proof.Proof.Gen.ReferenceIdeal
import proofs.«135324_j65481071405061_2_alg».proof.Proof.Gen.ReferenceIdeal.Run
import proofs.«135324_j65481071405061_2_alg».proof.Proof.Gen.ReferenceIdeal.Read
import proofs.«135324_j65481071405061_2_alg».proof.Proof.Gen.Pre_finite_inputs
import proofs.«135324_j65481071405061_2_alg».proof.Proof.GramSpec
import proofs.«135324_j65481071405061_2_alg».proof.Proof.ReferenceGram
import proofs.«135324_j65481071405061_2_alg».proof.Proof.KernelGram
import Idealize.ShloMosaic.Adequacy
import Idealize.ShloMosaic.Init

noncomputable section

namespace Cert.Proof

open Idealize.ShloMosaic Idealize.SL.Sem

/-- The kernel as printed runs to the end without a fault and leaves its two arguments as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is a straight line of whole-array operations: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- From memories that agree on the two families of points, the tiled kernel and the whole-array reference both end
    with the Gram matrix of those points in their result arrays. -/
theorem algebraic : Cert.algebraic_KernelIdeal_ReferenceIdeal := by
  intro m ρ m' ρ' _ hagree
  refine ⟨_, Cert.Gram.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.Gram.Reference.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
